-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x8x128 : Shape := ⟨3, ![2, 8, 128]⟩
abbrev S16384x128 : Shape := ⟨2, ![16384, 128]⟩
abbrev S1x8x128 : Shape := ⟨3, ![1, 8, 128]⟩
abbrev S8x128 : Shape := ⟨2, ![8, 128]⟩
abbrev S2048x8x128 : Shape := ⟨3, ![2048, 8, 128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .i32⟩
  | .local _ .vmem, ⟨3, _⟩ => ⟨S16384x128, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S16384x128_S2048x8x128 : S16384x128.ShapeCasts S2048x8x128
  reduces_S2048x8x128_S8x128 : S2048x8x128.Reduces [0] S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .i32 = 32 ∨ (Rect.block (s := S262144x128) S16384x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S_, .i32⟩
  | .hbm, ⟨9, _⟩ => ⟨S33554432, .i32⟩
  | .hbm, ⟨10, _⟩ => ⟨S33554432, .i1⟩
  | .hbm, ⟨11, _⟩ => ⟨S33554432, .i1⟩
  | .hbm, ⟨12, _⟩ => ⟨S_, .f32⟩
  | .hbm, ⟨13, _⟩ => ⟨S_, .f32⟩
  | .hbm, ⟨14, _⟩ => ⟨S33554432, .f32⟩
  | .hbm, ⟨15, _⟩ => ⟨S33554432, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S33554432, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.BodyValue.lean ====
/-
  What one run of the kernel body leaves behind, case by case.

  The body keeps an 8 × 128 accumulator in scratch memory.  At the first step of a core (case A) it stores the zero tile,
  then replaces it by "accumulator + partial sum of this step's block"; at a middle step (case B) it only does the
  replacement; at the last step of a core (case C) it does the replacement and then copies the accumulator, recast as
  1 × 8 × 128, into the output block.  Each case stores whole tiles, so what a buffer holds afterwards is the payload of
  the last store into it, the loads inside that payload reading the whole buffers they were given.
-/
import proofs.«113693_j4002909520771_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a core: the accumulator ends at the update of the zero tile by the step's two input blocks. -/
theorem sout_A (c : Dev nD) (i : grid0.Coords) (arg2 : Memref sig .tc .vmem S16384x128 .f32) (harg2 : arg2.IsWhole) (arg3 : Memref sig .tc .vmem S16384x128 .i32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S16384x128 .f32) (x1 : Vec F S16384x128 .i32) :
    sout0_A_0 c i arg2 harg2 arg3 harg3 arg4 harg4 arg5 harg5 hc0 hc1 x0 x1 = k0_pay2 x0 x1 k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread, View.ld_unit_zero (S := S16384x128) hz2]

/-- Middle step: the accumulator `xs0` ends at its update by the step's two input blocks. -/
theorem sout_B (c : Dev nD) (i : grid0.Coords) (arg2 : Memref sig .tc .vmem S16384x128 .f32) (harg2 : arg2.IsWhole) (arg3 : Memref sig .tc .vmem S16384x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S16384x128 .f32) (x1 : Vec F S16384x128 .i32) (xs0 : Vec F S8x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg5.read_unread,
    View.ld_unit_zero (S := S16384x128) hz2, View.ld_unit_zero (S := S8x128) hz2]

/-- Last step of a core: the accumulator is updated the same way … -/
theorem sout_C (c : Dev nD) (i : grid0.Coords) (arg2 : Memref sig .tc .vmem S16384x128 .f32) (harg2 : arg2.IsWhole) (arg3 : Memref sig .tc .vmem S16384x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S16384x128 .f32) (x1 : Vec F S16384x128 .i32) (xs0 : Vec F S8x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S16384x128) hz2, View.ld_unit_zero (S := S8x128) hz2]

/-- … and the output block receives the updated accumulator, recast as 1 × 8 × 128. -/
theorem out_C (c : Dev nD) (i : grid0.Coords) (arg2 : Memref sig .tc .vmem S16384x128 .f32) (harg2 : arg2.IsWhole) (arg3 : Memref sig .tc .vmem S16384x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S16384x128 .f32) (x1 : Vec F S16384x128 .i32) (xs0 : Vec F S8x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S8x128) _ hz2]
  simp only [View.readAt_eq_ld, harg2.read_unread, harg3.read_unread, harg5.read_unread,
    View.ld_unit_zero (S := S16384x128) hz2, View.ld_unit_zero (S := S8x128) hz2]

end Cert.KernelIdeal.Body

end
-- ==== Proof.Accumulated.lean ====
/-
  The accumulator point by point.

  The grid has 16 points, point `t` being step `t mod 8` of core `t / 8`.  The frame records, for every point, what the
  output block's buffer and the scratch accumulator hold after the body has run there.  Read through the case values:
  at a core's first step the accumulator is the update of the zero tile by the point's two input blocks; at any other
  step it is the update of what the point before left; and at a core's last step the output block is the accumulator
  recast as 1 × 8 × 128.
-/
import proofs.«113693_j4002909520771_2_alg».proof.Proof.Gen.KernelIdeal.Frame
import Idealize.ShloMosaic.Lib.Pipeline.Value
import Idealize.ShloMosaic.Lib.Tactic
import proofs.«113693_j4002909520771_2_alg».proof.Proof.BodyValue
set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

open Cert.KernelIdeal.Body

variable (m : (ℓ : Loc nD τ sig) → Buf (Elt F) ℓ)

/-- First step of a core: the zero tile updated by the point's blocks. -/
theorem snd_first (c : Dev nD) (t : Fin cfg0.N) (h0 : t.val % 8 = 0) :
    (outsAt0 m c t.val t.isLt).2 = k0_pay2 (iblk m c 0 t) (iblk m c 1 t) k0_pay1 := by
  have h1 : ¬t.val % 8 = 7 := by omega
  rw [outsAt0_A m c t h0 h1]
  exact sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- Any other step: what the point before left, updated by the point's blocks. -/
theorem snd_next (c : Dev nD) (t : Fin cfg0.N) (h0 : ¬t.val % 8 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    exact sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  · rw [outsAt0_B m c t h0 h1]
    exact sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

set_option maxHeartbeats 1000000 in
/-- Last step of a core: the output block is the accumulator, recast as 1 × 8 × 128. -/
theorem fst_last (c : Dev nD) (t : Fin cfg0.N) (h1 : t.val % 8 = 7) :
    (outsAt0 m c t.val t.isLt).1 = k0_pay3 (outsAt0 m c t.val t.isLt).2 := by
  have h0 : ¬t.val % 8 = 0 := by omega
  rw [snd_next m c t h0]
  refine (congrArg Prod.fst (outsAt0_C m c t h0 h1)).trans ?_
  dsimp only
  exact out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.KernelIdeal.Acc

end
-- ==== Proof.Term.lean ====
/-
  The summand of the weighted squared error, and the kernel's partial sum of one block.

  For a prediction `p` and an integer label `t` the summand is

      w(p, t) = (1 + [ (p ≥ 1/2) xor (t = 1) ] · 0.1) · (p − t) · (p − t),

  the bracket being 1 when the hard decision disagrees with the label and 0 otherwise, and 0.1 the binary32 word nearest
  to one tenth (the same word on both sides, never evaluated).  The kernel adds, for each position (a, b) of an 8 × 128
  tile, the 2048 entries (8 g + a, b) of a 16384 × 128 block: a sum over one axis of the block recast as 2048 × 8 × 128.
-/
import Idealize.ShloMosaic.PureOps.Ideal.Laws
import Idealize.ShloMosaic.Lib.ValueIdx
import Idealize.ShloMosaic.Lib.Pipeline.Value

noncomputable section

namespace Cert.Term

open Idealize.ShloMosaic Idealize.ShloMosaic.ValueIdx

variable {F : FTy → Type} [FloatOps F]

/-- The summand, at any float instance: weight times squared difference. -/
def wterm (p : F .f32) (t : BitVec 32) : F .f32 :=
  FloatOps.mulf
    (FloatOps.addf (FloatOps.ofBits .f32 0x3F800000#32)
      (Scalar.select (IntOp.xori (FloatOps.cmpf .oge p (FloatOps.ofBits .f32 0x3F000000#32)) (IntOp.cmpi .eq t 1#32))
        (FloatOps.ofBits .f32 0x3DCCCCCD#32) (FloatOps.ofBits .f32 0x00000000#32)))
    (FloatOps.mulf (FloatOps.subf p (FloatOps.sitofp .f32 t)) (FloatOps.subf p (FloatOps.sitofp .f32 t)))

/-- On one-bit words "not equal" is exclusive or. -/
theorem cmpi_ne_bit (x y : BitVec 1) : IntOp.cmpi .ne x y = IntOp.xori x y := by
  revert x y; decide

/-- Row `8 g + a` of a 16384-row block. -/
abbrev grow (g : Fin 2048) (a : Fin 8) : Fin 16384 := ⟨8 * g.val + a.val, by have := g.isLt; have := a.isLt; omega⟩

/-- The 2048 × 8 × 128 recast of a 16384 × 128 block, summed over its leading axis, read at (a, b): the sum over the
    groups `g` of the block's entry (8 g + a, b). -/
theorem groupSum_apply (v : FVec Ideal ⟨2, ![16384, 128]⟩ .f32)
    (hc : (⟨2, ![16384, 128]⟩ : Shape).ShapeCasts ⟨3, ![2048, 8, 128]⟩)
    (hr : (⟨3, ![2048, 8, 128]⟩ : Shape).Reduces [0] ⟨2, ![8, 128]⟩)
    (hφ : FKind.Formats .f32) (hacc : (0x00000000#32 : BitVec 32) = FKind.add.neutral .f32 hφ) (a : Fin 8) (b : Fin 128) :
    multiReduction .add [0] ⟨2, ![8, 128]⟩ (shapeCast ⟨3, ![2048, 8, 128]⟩ v hc) 0x00000000#32 hr hφ hacc (ix2 a b)
      = ∑ g : Fin 2048, v (ix2 (grow g a) b) := by
  rw [Ideal.multiReduction_add_single]
  refine Finset.sum_congr rfl fun g _ => ?_
  refine shapeCast_apply v hc _ (ix2 (grow g a) b) ?_
  rw [Shape.rowMajor_val_two, Shape.rowMajor_val_three]
  show (8 * g.val + a.val) * 128 + b.val = (g.val * 8 + a.val) * 128 + b.val
  omega

end Cert.Term

end
-- ==== Proof.PayloadAt.lean ====
/-
  The body's payloads read at a tile position, on the extended reals.

  The zero tile reads 0 everywhere.  The accumulator's update reads, at position (a, b), the old accumulator there plus
  the sum over the 2048 row groups `g` of the summand at entry (8 g + a, b) of the step's prediction and label blocks.
-/
import proofs.«113693_j4002909520771_2_alg».proof.Proof.Gen.KernelIdeal.Frame
import Idealize.ShloMosaic.Lib.Pipeline.Value
import Idealize.ShloMosaic.Lib.Tactic
import proofs.«113693_j4002909520771_2_alg».proof.Proof.Term
set_option maxRecDepth 16384

noncomputable section

open Idealize.ShloMosaic Idealize.ShloMosaic.TcCoe Idealize.SL.Sem
open Idealize.ShloMosaic.Pipeline (Dat)

namespace Cert.KernelIdeal.Pay

open Cert.KernelIdeal Cert.KernelIdeal.Gen

variable {F : FTy → Type} [FloatOps F]

open Cert.Term Idealize.ShloMosaic.ValueIdx

/-- The zero tile. -/
theorem pay1_apply (j : S8x128.Idx) : k0_pay1 (F := Ideal) j = 0 := by
  unfold k0_pay1
  simp only [shapeCast_self]
  exact Ideal.ofBits_zero_f32

/-- The update at (a, b): the old value plus the block's partial sum there. -/
theorem pay2_apply (x0 : Vec Ideal S16384x128 .f32) (x1 : Vec Ideal S16384x128 .i32) (xs : Vec Ideal S8x128 .f32)
    (a : Fin 8) (b : Fin 128) :
    k0_pay2 (F := Ideal) x0 x1 xs (ix2 a b)
      = xs (ix2 a b) + ∑ g : Fin 2048, wterm (F := Ideal) (x0 (ix2 (grow g a) b)) (x1 (ix2 (grow g a) b)) := by
  unfold k0_pay2
  simp only [shapeCast_self]
  refine (addf_apply _ _ _).trans ?_
  refine congrArg (xs (ix2 a b) + ·) ?_
  refine (groupSum_apply _ _ _ _ _ a b).trans ?_
  rfl

end Cert.KernelIdeal.Pay

end
-- ==== Proof.BlockRead.lean ====
/-
  The input blocks, read off the flat argument vectors.

  Before the kernel runs, each flat vector of 2^25 entries is recast as 262144 rows of 128 lanes (same row-major order).
  Point `t` of the grid is handed rows 16384 t … 16384 t + 16383 of each: the block index of both input windows is `t`
  itself.  So entry (r, l) of the block at point `t` is flat entry 128 · (16384 t + r) + l.
-/
import proofs.«113693_j4002909520771_2_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]

open Idealize.ShloMosaic.ValueIdx

variable (m : (ℓ : Loc nD τ sig) → Buf (Elt F) ℓ)

/-- The flat position of entry (r, l) of the block at point `t`. -/
def flat (t : Fin cfg0.N) (r : Fin 16384) (l : Fin 128) : Fin 33554432 :=
  ⟨128 * (16384 * t.val + r.val) + l.val, by
    have := t.isLt; have hN : cfg0.N = 16 := N_0; have := r.isLt; have := l.isLt; omega⟩

/-- The prediction array as the region finds it: the flat argument recast. -/
theorem V_v0 (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- The label array as the region finds it: the flat argument recast. -/
theorem V_v1 (c : Dev nD) :
    (V m c main_v1 : S262144x128.Idx → Elt F .i32)
      = shapeCast S262144x128 (m ((c : Thread nD τ).loc main_arg1)) shapeCasts_S33554432_S262144x128 := by
  show StableHlo.after hostOps0 (fun b => m (c, b)) (Proc.devRef .tc main_v1) = _
  after_results
  rfl

/-- The printed index maps over the grid: both input windows sit at block (t, 0), the output window at block
    (t / 8, 0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

/-- Entry (r, l) of the prediction block at point `t`. -/
theorem iblk0_apply (c : Dev nD) (t : Fin cfg0.N) (r : Fin 16384) (l : Fin 128) :
    (iblk m c 0 t : Vec F S16384x128 .f32) (ix2 r l) = m ((c : Thread nD τ).loc main_arg0) (ix1 (flat t r l)) := by
  unfold iblk
  rw [View.read_apply]
  show V m c main_v0 (((cfg0.win 0).blk t).view.emb (ix2 r l)) = _
  rw [V_v0]
  refine shapeCast_apply _ _ _ _ ?_
  show (S33554432.rowMajor (ix1 (flat t r l))).val = (S262144x128.rowMajor (((cfg0.win 0).blk t).view.emb (ix2 r l))).val
  rw [Shape.rowMajor_val_one, Shape.rowMajor_val_two]
  obtain ⟨e0, e1, -⟩ := idx_facts t
  show 128 * (16384 * t.val + r.val) + l.val
    = (win0_0.index t (0 : Fin 2) * 16384 + 1 * r.val) * 128 + (win0_0.index t (1 : Fin 2) * 128 + 1 * l.val)
  rw [e0, e1]; omega

/-- Entry (r, l) of the label block at point `t`. -/
theorem iblk1_apply (c : Dev nD) (t : Fin cfg0.N) (r : Fin 16384) (l : Fin 128) :
    (iblk m c 1 t : Vec F S16384x128 .i32) (ix2 r l) = m ((c : Thread nD τ).loc main_arg1) (ix1 (flat t r l)) := by
  unfold iblk
  rw [View.read_apply]
  show V m c main_v1 (((cfg0.win 1).blk t).view.emb (ix2 r l)) = _
  rw [V_v1]
  refine shapeCast_apply _ _ _ _ ?_
  show (S33554432.rowMajor (ix1 (flat t r l))).val = (S262144x128.rowMajor (((cfg0.win 1).blk t).view.emb (ix2 r l))).val
  rw [Shape.rowMajor_val_one, Shape.rowMajor_val_two]
  obtain ⟨-, -, e0, e1, -⟩ := idx_facts t
  show 128 * (16384 * t.val + r.val) + l.val
    = (win0_1.index t (0 : Fin 2) * 16384 + 1 * r.val) * 128 + (win0_1.index t (1 : Fin 2) * 128 + 1 * l.val)
  rw [e0, e1]; omega

end Cert.KernelIdeal.Blocks

end
-- ==== Proof.Regroup.lean ====
/-
  Regrouping a finite sum.  A flat vector of 2^25 entries is read by the kernel as 2 halves (one per core), each half as
  8 consecutive blocks of 16384 rows of 128 lanes, each block as 2048 groups of 8 rows.  Entry `k` of the flat vector is
  therefore entry (core c, block i, group g, row a of the group, lane b) with

      k = 128 * (16384 * (8 c + i) + (8 g + a)) + b,

  the mixed-radix expansion of `k` with digits (c, i, g, a, b) of radices (2, 8, 2048, 8, 128).  The expansion is a
  bijection, so a sum over all `k` is the iterated sum over the digits, in whatever order the digits are taken: addition
  in a commutative monoid (the extended reals among them) is commutative and associative, and nothing else is used.
-/
import Mathlib.Algebra.BigOperators.Fin

namespace Cert.Regroup

/-- The flat position of (core `c`, row `a` of a group, lane `b`, block `i`, group `g`). -/
def pos (c : Fin 2) (a : Fin 8) (b : Fin 128) (i : Fin 8) (g : Fin 2048) : Fin 33554432 :=
  ⟨128 * (16384 * (8 * c.val + i.val) + (8 * g.val + a.val)) + b.val, by
    have := c.isLt; have := a.isLt; have := b.isLt; have := i.isLt; have := g.isLt; omega⟩

theorem pos_val (c : Fin 2) (a : Fin 8) (b : Fin 128) (i : Fin 8) (g : Fin 2048) :
    (pos c a b i g).val = 128 * (16384 * (8 * c.val + i.val) + (8 * g.val + a.val)) + b.val := rfl

/-- The digits of a position, and back: the mixed-radix expansion is a bijection. -/
def posEquiv : (Fin 2 × Fin 8 × Fin 128 × Fin 8 × Fin 2048) ≃ Fin 33554432 where
  toFun p := pos p.1 p.2.1 p.2.2.1 p.2.2.2.1 p.2.2.2.2
  invFun k :=
    (⟨k.val / 16777216, by have := k.isLt; omega⟩, ⟨k.val / 128 % 8, by omega⟩, ⟨k.val % 128, by omega⟩,
      ⟨k.val / 2097152 % 8, by omega⟩, ⟨k.val / 1024 % 2048, by omega⟩)
  left_inv := by
    rintro ⟨c, a, b, i, g⟩
    have := c.isLt; have := a.isLt; have := b.isLt; have := i.isLt; have := g.isLt
    simp only [pos, Prod.mk.injEq, Fin.ext_iff]
    refine ⟨?_, ?_, ?_, ?_, ?_⟩ <;> omega
  right_inv := by
    intro k
    have := k.isLt
    apply Fin.ext
    simp only [pos]
    omega

/-- A sum over the flat vector is the iterated sum over cores, rows of a group, lanes, blocks and groups. -/
theorem sum_regroup {M : Type*} [AddCommMonoid M] (W : Fin 33554432 → M) :
    ∑ k, W k = ∑ c : Fin 2, ∑ a : Fin 8, ∑ b : Fin 128, ∑ i : Fin 8, ∑ g : Fin 2048, W (pos c a b i g) := by
  rw [← Equiv.sum_comp posEquiv W]
  simp only [Fintype.sum_prod_type]
  rfl

end Cert.Regroup
-- ==== Proof.ClosedForm.lean ====
/-
  The accumulator in closed form, on the extended reals.

  Write W(k) for the summand at flat position `k` of the two argument vectors.  The partial sum of the block at point `t`
  at tile position (a, b) is  P(t, a, b) = Σ_g W(128 · (16384 t + 8 g + a) + b),  g over the 2048 row groups.  One update
  adds P(t, a, b) to position (a, b) of the accumulator.  Core `k` starts from the zero tile at point 8 k, so after its
  step `i` the accumulator holds  Σ_{j ≤ i} P(8 k + j, a, b)  — by induction on `i`, 0 being neutral for + — and after
  its last step the sum over all eight of its blocks.
-/
import proofs.«113693_j4002909520771_2_alg».proof.Proof.Gen.KernelIdeal.Frame
import Idealize.ShloMosaic.Lib.Pipeline.Value
import Idealize.ShloMosaic.Lib.Tactic
import proofs.«113693_j4002909520771_2_alg».proof.Proof.Accumulated
import proofs.«113693_j4002909520771_2_alg».proof.Proof.PayloadAt
import proofs.«113693_j4002909520771_2_alg».proof.Proof.BlockRead
import proofs.«113693_j4002909520771_2_alg».proof.Proof.Regroup
set_option maxRecDepth 16384

noncomputable section

open Idealize.ShloMosaic Idealize.ShloMosaic.TcCoe Idealize.SL.Sem
open Idealize.ShloMosaic.Pipeline (Dat)

namespace Cert.KernelIdeal.Closed

open Cert.KernelIdeal Cert.KernelIdeal.Gen

variable {F : FTy → Type} [FloatOps F]

open Cert.Term Cert.Regroup Idealize.ShloMosaic.ValueIdx
open Cert.KernelIdeal.Acc Cert.KernelIdeal.Pay Cert.KernelIdeal.Blocks

variable (m : (ℓ : Loc nD τ sig) → Buf (Elt Ideal) ℓ)

/-- The summand at flat position `k`. -/
def W (c : Dev nD) (k : Fin 33554432) : EReal :=
  wterm (F := Ideal) (m ((c : Thread nD τ).loc main_arg0) (ix1 k)) (m ((c : Thread nD τ).loc main_arg1) (ix1 k))

/-- The partial sum of the block at point `t`, at tile position (a, b). -/
def part (c : Dev nD) (t : Fin cfg0.N) (a : Fin 8) (b : Fin 128) : EReal :=
  ∑ g : Fin 2048, W m c (flat t (grow g a) b)

/-- One update at point `t` adds the block's partial sum. -/
theorem step_apply (c : Dev nD) (t : Fin cfg0.N) (xs : Vec Ideal S8x128 .f32) (a : Fin 8) (b : Fin 128) :
    k0_pay2 (F := Ideal) (iblk m c 0 t) (iblk m c 1 t) xs (ix2 a b) = xs (ix2 a b) + part m c t a b := by
  refine (pay2_apply (iblk m c 0 t) (iblk m c 1 t) xs a b).trans ?_
  refine congrArg (xs (ix2 a b) + ·) (Finset.sum_congr rfl fun g _ => ?_)
  exact congrArg₂ (wterm (F := Ideal)) (iblk0_apply m c t (grow g a) b) (iblk1_apply m c t (grow g a) b)

/-- Point `8 k + i` of the grid: step `i` of core `k`. -/
def pt (k : Fin 2) (i : ℕ) (hi : i < 8) : Fin cfg0.N :=
  ⟨8 * k.val + i, by have := k.isLt; rw [show cfg0.N = 16 from N_0]; omega⟩

/-- After step `i` of core `k` the accumulator holds the partial sums of the core's blocks 0 … i. -/
theorem acc_apply (c : Dev nD) (k : Fin 2) (a : Fin 8) (b : Fin 128) :
    ∀ (i : ℕ) (hi : i < 8), (outsAt0 m c (pt k i hi).val (pt k i hi).isLt).2 (ix2 a b)
      = ∑ j : Fin (i + 1), part m c (pt k j.val (by have := j.isLt; omega)) a b
  | 0, hi => by
    refine (congrFun (snd_first m c (pt k 0 hi) (by show (8 * k.val + 0) % 8 = 0; omega)) (ix2 a b)).trans ?_
    refine (step_apply m c (pt k 0 hi) _ a b).trans ?_
    rw [pay1_apply, zero_add, Fin.sum_univ_one]
    rfl
  | i + 1, hi => by
    refine (congrFun (snd_next m c (pt k (i + 1) hi) (by show ¬(8 * k.val + (i + 1)) % 8 = 0; omega)) (ix2 a b)).trans ?_
    refine (step_apply m c (pt k (i + 1) hi) _ a b).trans ?_
    rw [Fin.sum_univ_castSucc]
    refine congrArg₂ (· + ·) ?_ rfl
    exact acc_apply c k a b i (by omega)

/-- The block of point `8 k + i` sits at the flat positions of (core k, block i). -/
theorem flat_pt (k : Fin 2) (i : Fin 8) (g : Fin 2048) (a : Fin 8) (b : Fin 128) :
    flat (pt k i.val i.isLt) (grow g a) b = pos k a b i g := Fin.ext rfl

/-- After a core's last step: the sum over its eight blocks and their 2048 row groups. -/
theorem acc_last (c : Dev nD) (k : Fin 2) (a : Fin 8) (b : Fin 128) :
    (outsAt0 m c (pt k 7 (by omega)).val (pt k 7 (by omega)).isLt).2 (ix2 a b)
      = ∑ i : Fin 8, ∑ g : Fin 2048, W m c (pos k a b i g) := by
  rw [acc_apply m c k a b 7 (by omega)]
  refine Finset.sum_congr rfl fun i _ => ?_
  unfold part
  refine Finset.sum_congr rfl fun g _ => ?_
  rw [← flat_pt k i g a b]

end Cert.KernelIdeal.Closed

end
-- ==== Proof.ResultArray.lean ====
/-
  The kernel's output array after the run.

  The 2 × 8 × 128 output has one 1 × 8 × 128 block per core, written back once, after the core's last step (points 7 and
  15), with the accumulator recast.  So entry (k, a, b) of the array ends holding the sum, over the eight blocks of core
  `k` and the 2048 row groups of each, of the summand at the flat position of (k, a, b, block, group); the two blocks
  cover the array.
-/
import proofs.«113693_j4002909520771_2_alg».proof.Proof.Gen.KernelIdeal.Frame
import Idealize.ShloMosaic.Lib.Pipeline.Value
import Idealize.ShloMosaic.Lib.Tactic
import proofs.«113693_j4002909520771_2_alg».proof.Proof.ClosedForm
set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen

variable {F : FTy → Type} [FloatOps F]

open Cert.Term Cert.Regroup Idealize.ShloMosaic.ValueIdx
open Cert.KernelIdeal.Acc Cert.KernelIdeal.Pay Cert.KernelIdeal.Blocks Cert.KernelIdeal.Closed

variable (m : (ℓ : Loc nD τ sig) → Buf (Elt Ideal) ℓ)

/-- What the output array ends holding. -/
def out (c : Dev nD) : S2x8x128.Idx → EReal :=
  fun j => ∑ i : Fin 8, ∑ g : Fin 2048, W m c (pos (j 0) (j 1) (j 2) i g)

/-- The last point of core `k`. -/
abbrev lastPt (k : Fin 2) : Fin cfg0.N := pt k 7 (Nat.lt_succ_self 7)

/-- The 1 × 8 × 128 recast of a tile reads the tile at the two trailing coordinates. -/
theorem pay3_apply (v : Vec Ideal S8x128 .f32) (y : S1x8x128.Idx) :
    k0_pay3 (F := Ideal) v y = v (ix2 (y 1) (y 2)) := by
  unfold k0_pay3
  refine shapeCast_apply v _ y (ix2 (y 1) (y 2)) ?_
  rw [Shape.rowMajor_val_two, Shape.rowMajor_val_three]
  have h0 : (y 0).val < 1 := (y 0).isLt
  show (y 1).val * 128 + (y 2).val = ((y 0).val * 8 + (y 1).val) * 128 + (y 2).val
  omega

/-- What a write-back writes: the block of `out` at that point. -/
theorem flushed_eq (c : Dev nD) (t : Fin cfg0.N) (hf : (cfg0.win 2).flush t = true) :
    (dats m 0 c).flushed 2 t = ((cfg0.win 2).blk t).view.read (Elt Ideal) (out m c) := by
  have h7 : t.val % 8 = 7 := (flush0_2 t).mp hf
  have hN : cfg0.N = 16 := N_0
  have hk : t.val / 8 < 2 := by have := t.isLt; omega
  obtain ⟨k, rfl⟩ : ∃ k : Fin 2, t = lastPt k :=
    ⟨⟨t.val / 8, hk⟩, Fin.ext (by show t.val = 8 * (t.val / 8) + 7; omega)⟩
  show (cfg0.win 2).cut (grid0.coords (lastPt k)) ((dats m 0 c).after 2 (lastPt k)) = _
  rw [after0_2, fst_last m c (lastPt k) h7]
  funext y
  rw [View.read_apply]
  refine (pay3_apply _ y).trans ?_
  refine (acc_last m c k (y 1) (y 2)).trans ?_
  obtain ⟨-, -, -, -, e0, e1, e2⟩ := idx_facts (lastPt k)
  have hy0 : (y 0).val < 1 := (y 0).isLt
  have q0 : (((cfg0.win 2).blk (lastPt k)).view.emb y) 0 = k := Fin.ext (by
    show win0_2.index (lastPt k) (0 : Fin 3) * 1 + 1 * (y 0).val = k.val
    rw [e0]; show (8 * k.val + 7) / 8 * 1 + 1 * (y 0).val = k.val; omega)
  have q1 : (((cfg0.win 2).blk (lastPt k)).view.emb y) 1 = y 1 := Fin.ext (by
    show win0_2.index (lastPt k) (1 : Fin 3) * 8 + 1 * (y 1).val = (y 1).val
    rw [e1]; omega)
  have q2 : (((cfg0.win 2).blk (lastPt k)).view.emb y) 2 = y 2 := Fin.ext (by
    show win0_2.index (lastPt k) (2 : Fin 3) * 128 + 1 * (y 2).val = (y 2).val
    rw [e2]; omega)
  show _ = ∑ i : Fin 8, ∑ g : Fin 2048, W m c (pos ((((cfg0.win 2).blk (lastPt k)).view.emb y) 0)
    ((((cfg0.win 2).blk (lastPt k)).view.emb y) 1) ((((cfg0.win 2).blk (lastPt k)).view.emb y) 2) i g)
  rw [q0, q1, q2]

/-- Every entry of the array lies in the block its core writes back. -/
theorem cover (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  refine ⟨lastPt ⟨(i 0).val, h0⟩, (flush0_2 _).mpr (by show (8 * (i 0).val + 7) % 8 = 7; omega), ?_⟩
  obtain ⟨-, -, -, -, e0, e1, e2⟩ := idx_facts (lastPt ⟨(i 0).val, h0⟩)
  show i ∈ ((View.whole main_v2).slice (win0_2.rect (lastPt ⟨(i 0).val, h0⟩))).set
  rw [View.set_slice_whole, Rect.mem_set_unit]
  intro a
  match a with
  | ⟨0, _⟩ =>
    show win0_2.index (lastPt ⟨(i 0).val, h0⟩) (0 : Fin 3) * 1 ≤ (i 0).val
      ∧ (i 0).val < win0_2.index (lastPt ⟨(i 0).val, h0⟩) (0 : Fin 3) * 1 + 1
    rw [e0]; show (8 * (i 0).val + 7) / 8 * 1 ≤ (i 0).val ∧ (i 0).val < (8 * (i 0).val + 7) / 8 * 1 + 1; omega
  | ⟨1, _⟩ =>
    show win0_2.index (lastPt ⟨(i 0).val, h0⟩) (1 : Fin 3) * 8 ≤ (i 1).val
      ∧ (i 1).val < win0_2.index (lastPt ⟨(i 0).val, h0⟩) (1 : Fin 3) * 8 + 8
    rw [e1]; omega
  | ⟨2, _⟩ =>
    show win0_2.index (lastPt ⟨(i 0).val, h0⟩) (2 : Fin 3) * 128 ≤ (i 2).val
      ∧ (i 2).val < win0_2.index (lastPt ⟨(i 0).val, h0⟩) (2 : Fin 3) * 128 + 128
    rw [e2]; omega

/-- The output array after the run. -/
theorem final (c : Dev nD) : (dats m 0 c).arrAt 2 cfg0.N = out m c :=
  (dats m 0 c).arrAt_eq_of_cover 2 (out m c) (flushed_eq m c) (cover)

end Cert.KernelIdeal.Result

end
-- ==== Proof.LibSumIdx.lean ====
/-
  Sums over the index sets of rank-1 and rank-3 shapes, as iterated sums over the coordinates.

  An index of a shape of rank r is the tuple of its r coordinates; the index set is in bijection with the product of the
  coordinate ranges, so a sum over it (in any commutative monoid) is the iterated sum over the coordinates.  The rank-2
  case is in the library; these are the same statement at ranks 1 and 3.
-/
import Idealize.ShloMosaic.Lib.ValueIdx

namespace Cert.LibSumIdx

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

end Cert.LibSumIdx
-- ==== Proof.KernelResult.lean ====
/-
  The kernel program's result, on the extended reals.

  After the kernel, the program adds all 2 · 8 · 128 entries of the output array to the zero word and divides by the word
  of 2^25.  Entry (k, a, b) is itself the sum over the blocks and row groups of core `k`, so the total is the iterated sum
  over cores, tile rows, lanes, blocks and groups of the summand — which is the sum over all flat positions, the five
  digits being a bijective expansion of the position.  Only commutativity and associativity of + are used.
-/
import proofs.«113693_j4002909520771_2_alg».proof.Proof.Gen.KernelIdeal.Frame
import Idealize.ShloMosaic.Lib.Pipeline.Value
import Idealize.ShloMosaic.Lib.Tactic
import proofs.«113693_j4002909520771_2_alg».proof.Proof.ResultArray
import proofs.«113693_j4002909520771_2_alg».proof.Proof.LibSumIdx
import Idealize.ShloMosaic.Lib.StableHlo.Run
import Idealize.ShloMosaic.Lib.IdealHost
set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]

open Cert.Term Cert.Regroup Cert.LibSumIdx Idealize.ShloMosaic.ValueIdx
open Cert.KernelIdeal.Closed Cert.KernelIdeal.Result

variable (m : (ℓ : Loc nD τ sig) → Buf (Elt Ideal) ℓ) (ρ : Dev nD → PrngReg)

/-- The program's result: the zero word plus the sum of the summands over all flat positions, over the word of 2^25. -/
def kres (c : Dev nD) : S_.Idx → EReal := fun _ =>
  FloatOps.hostDivf (F := Ideal) (FloatOps.ofBits .f32 0x00000000#32 + ∑ k : Fin 33554432, W m c k)
    (FloatOps.ofBits .f32 0x4C000000#32)

/-- The sum of all entries of the output array is the sum of the summands over all flat positions. -/
theorem sum_out (c : Dev nD) : ∑ j : S2x8x128.Idx, out m c j = ∑ k : Fin 33554432, W m c k := by
  rw [sum_idx3, sum_regroup (W m c)]
  rfl

/-- What the operations after the kernel leave in the result buffer. -/
theorem tail_eq (c : Dev nD) :
    Pipeline.afterTail₀ cfgs (dats m) 0 (V0 m) [hostOps1] c main_v4 = kres m c := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v2) = out m c :=
    (Pipeline.withArrays_arr spec0 launch0.win.arr_inj c _ _ 2).trans (final m c)
  rw [hw]
  funext i
  show FloatOps.hostDivf (F := Ideal)
    (Host.reduceAdd (F := Ideal) (out m c) (constant S_ .f32 0x00000000#32) reducesTo_S2x8x128_S_d0_1_2 h_S_ i)
    (FloatOps.ofBits .f32 0x4C000000#32) = _
  rw [hostReduceAdd_apply, Ideal.hostReduceAdd_total reducesTo_S2x8x128_S_d0_1_2 (fun b => b.elim0), sum_out]
  rfl

/-- The run, read: the result buffer at `kres`, the arguments unchanged. -/
theorem run : θ_run defs (onTc (τ := τ) (main (F := Ideal))) ⟨m, fun _ => 0, ρ⟩ fun r => ∀ c : Dev nD,
      r.2.mem ((c.tc : Thread nD τ).loc main_v4) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.RefValue.lean ====
/-
  The reference, read on the extended reals.

  The reference computes, for every flat position, the same summand the kernel does — its "not equal" of two one-bit
  words is their exclusive or, and its scalar constants broadcast to every position read the same words — then adds all
  2^25 of them to the zero word and divides by the word of 2^25.
-/
import proofs.«113693_j4002909520771_2_alg».proof.Proof.Gen.ReferenceIdeal.Read
import proofs.«113693_j4002909520771_2_alg».proof.Proof.Term
import proofs.«113693_j4002909520771_2_alg».proof.Proof.LibSumIdx

noncomputable section

open Idealize.ShloMosaic Idealize.ShloMosaic.TcCoe Idealize.SL.Sem

namespace Cert.ReferenceIdeal.RefValue

open Cert.ReferenceIdeal Cert.ReferenceIdeal.Read Cert.Term Cert.LibSumIdx Idealize.ShloMosaic.ValueIdx

/-- The reference's product of weights and squared differences, at a position: the summand there. -/
theorem v12_apply (x0 : (⟨S33554432, .f32⟩ : BufTy).Contents (Elt Ideal)) (x1 : (⟨S33554432, .i32⟩ : BufTy).Contents (Elt Ideal))
    (j : S33554432.Idx) : val_main_v12 (F := Ideal) x0 x1 j = wterm (F := Ideal) (x0 j) (x1 j) := by
  simp only [val_main_v12_apply, val_main_v11_apply, val_main_v10_apply, val_main_cst_2_apply, val_main_v9_apply,
    val_main_v8_apply, val_main_v7_apply, val_main_v4_apply, val_main_v3_apply, val_main_cst_apply, val_main_v6_apply,
    val_main_v5_apply, val_main_c_apply, val_main_call0_v0_apply, val_main_cst_0_apply, val_main_call0_v1_apply,
    val_main_cst_1_apply, val_main_v2_apply, val_main_v1_apply, val_main_v0_apply, cmpi_ne_bit]
  rfl

/-- The reference's result: the zero word plus the sum of the summands over all flat positions, over the word of 2^25. -/
theorem result_apply (x0 : (⟨S33554432, .f32⟩ : BufTy).Contents (Elt Ideal)) (x1 : (⟨S33554432, .i32⟩ : BufTy).Contents (Elt Ideal))
    (i : S_.Idx) :
    val_main_v14 (F := Ideal) x0 x1 i
      = FloatOps.hostDivf (F := Ideal)
          (FloatOps.ofBits .f32 0x00000000#32 + ∑ k : Fin 33554432, wterm (F := Ideal) (x0 (ix1 k)) (x1 (ix1 k)))
          (FloatOps.ofBits .f32 0x4C000000#32) := by
  rw [val_main_v14_apply, val_main_v13_apply, val_main_cst_3_apply, val_main_cst_4_apply, sum_idx1]
  simp only [v12_apply]

end Cert.ReferenceIdeal.RefValue

end
-- ==== Proof.lean ====
/-
  Weighted mean squared error: a tiled two-core accumulation against one flat mean.

  Both programs take a flat vector `p` of 2^25 predictions and a flat vector `t` of 2^25 integer labels and return

      ( 0 + Σ_k w(p_k, t_k) ) / 2^25,      w(p, t) = (1 + [ (p ≥ 1/2) xor (t = 1) ] · c) · (p − t) · (p − t),

  `c` being the binary32 word nearest one tenth (the same word in both programs, never evaluated).

  The reference forms the summands position by position, adds them all to the zero word and divides by the word of 2^25.

  The kernel program recasts each vector as 262144 rows of 128 lanes and hands core `k` (of two) the blocks
  8 k … 8 k + 7 of 16384 rows, one per step.  A core keeps an 8 × 128 accumulator: zero before its first step, and at
  each step increased, at tile position (a, b), by the sum over the 2048 row groups `g` of the summand at row 8 g + a,
  lane b of the step's block.  After its last step the core writes the accumulator into its half of a 2 × 8 × 128 output.
  The program then adds all 2048 output entries to the zero word and divides by the word of 2^25.

  So the kernel's total is the iterated sum over (core k, tile row a, lane b, block i, group g) of the summand at flat
  position  128 · (16384 · (8 k + i) + 8 g + a) + b.  These five digits are a bijective mixed-radix expansion of the
  position, hence the iterated sum is the sum over all positions — by commutativity and associativity of addition on the
  extended reals alone (0 is neutral), with no finiteness needed, so the precondition is never opened.  The two quotients
  are then the same quotient of the same two extended reals.

  The modules: Regroup (the expansion and the regrouped sum), Term (the summand; a block's group sum read at a position),
  BodyValue (what one run of the body leaves, case by case), Accumulated (the accumulator from point to point),
  PayloadAt and BlockRead (the update and the blocks read at a position), ClosedForm (the accumulator as a sum over the
  core's blocks), ResultArray (the output array), KernelResult (the program's result), RefValue (the reference's result).
  The idealization rewrote nothing, so the kernel's idealization is its own text read on the extended reals.
-/
import proofs.«113693_j4002909520771_2_alg».proof.Defs
import proofs.«113693_j4002909520771_2_alg».proof.Proof.Gen.Kernel
import proofs.«113693_j4002909520771_2_alg».proof.Proof.Gen.Kernel.Skeleton
import proofs.«113693_j4002909520771_2_alg».proof.Proof.Gen.Kernel.Launch
import proofs.«113693_j4002909520771_2_alg».proof.Proof.Gen.Kernel.Points
import proofs.«113693_j4002909520771_2_alg».proof.Proof.Gen.Kernel.Frame
import proofs.«113693_j4002909520771_2_alg».proof.Proof.Gen.KernelIdeal
import proofs.«113693_j4002909520771_2_alg».proof.Proof.Gen.KernelIdeal.Skeleton
import proofs.«113693_j4002909520771_2_alg».proof.Proof.Gen.KernelIdeal.Launch
import proofs.«113693_j4002909520771_2_alg».proof.Proof.Gen.KernelIdeal.Points
import proofs.«113693_j4002909520771_2_alg».proof.Proof.Gen.KernelIdeal.Frame
import proofs.«113693_j4002909520771_2_alg».proof.Proof.Gen.ReferenceIdeal
import proofs.«113693_j4002909520771_2_alg».proof.Proof.Gen.Pre_finite_inputs
import proofs.«113693_j4002909520771_2_alg».proof.Proof.Gen.ReferenceIdeal.Run
import proofs.«113693_j4002909520771_2_alg».proof.Proof.Gen.ReferenceIdeal.Read
import proofs.«113693_j4002909520771_2_alg».proof.Proof.KernelResult
import proofs.«113693_j4002909520771_2_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as they were. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- On the extended reals both programs end at (0 + Σ_k w(p_k, t_k)) / 2^25 of arguments that agree. -/
theorem algebraic : Cert.algebraic_KernelIdeal_ReferenceIdeal := by
  intro m ρ m' ρ' _ hagree
  refine ⟨fun c => Cert.KernelIdeal.Tail.kres m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  funext i
  rw [Cert.ReferenceIdeal.RefValue.result_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
